-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x2048 .f32) (main_arg1 : FVec F S2048x2048 .f32) (main_arg2 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S2048x1 : Shape := ⟨2, ![2048, 1]⟩
abbrev S256x2048 : Shape := ⟨2, ![256, 2048]⟩
abbrev S2048x256 : Shape := ⟨2, ![2048, 256]⟩
abbrev S256x1 : Shape := ⟨2, ![256, 1]⟩
abbrev S256 : Shape := ⟨1, ![256]⟩

abbrev nBuf : Space → Nat
  | .hbm => 10
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S2048x2048, .bf16⟩
  | .hbm, ⟨6, _⟩ => ⟨S2048x1, .f32⟩
  | .hbm, ⟨7, _⟩ => ⟨S1x2048, .f32⟩
  | .hbm, ⟨8, _⟩ => ⟨S8192x2048, .f32⟩
  | .hbm, ⟨9, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x256, .bf16⟩
  | .local _ .vmem, ⟨3, _⟩ => ⟨S2048x256, .bf16⟩
  | .local _ .vmem, ⟨4, _⟩ => ⟨S256x1, .f32⟩
  | .local _ .vmem, ⟨5, _⟩ => ⟨S256x1, .f32⟩
  | .local _ .vmem, ⟨6, _⟩ => ⟨S256x2048, .f32⟩
  | .local _ .vmem, ⟨7, _⟩ => ⟨S256x2048, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S4x2048x2048_S8192x2048 : S4x2048x2048.ShapeCasts S8192x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  transposes_S256x2048_p1_0_S2048x256 : S256x2048.Transposes [1, 0] S2048x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S256x1_S256x1_0_0 : ∀ a, (![0, 0] : Fin 2 → Nat) a + S256x1.size a ≤ S256x1.size a
  h_S256x1 : 0 < S256x1.numel
  shapeCasts_S2048x1_S1x2048 : S2048x1.ShapeCasts S1x2048
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  shapeCasts_S8192x2048_S4x2048x2048 : S8192x2048.ShapeCasts S4x2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x2048.size a
  hwx0_1 : ∀ i : grid0.Coords, EltTy.bits .bf16 = 32 ∨ (Rect.block (s := S2048x2048) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S8192x2048.size a
  hwx1_4 : ∀ i : grid1.Coords, EltTy.bits .f32 = 32 ∨ (Rect.block (s := S8192x2048) S256x2048.size (cc1_transform_4 i) (hinb1_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2_0) S2048x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S1x1x2048, .f32⟩
  | .hbm, ⟨55, _⟩ => ⟨S4x2048x2048, .f32⟩
  | .hbm, ⟨56, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  reducesTo_S4x2048x2048_S4x2048_d2 : S4x2048x2048.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.KernelRun.lean ====
/-
  The idealized kernel's run with its RESULT named.

  The program is two grids of kernel launches among three stretches of host reshapes.  Its buffer contents at each
  boundary are a fold from the launch memory: reshapes applied, then each launch's arrays replaced by what its grid
  leaves in them.  Every execution ends with every buffer that outlives the launches at the last stage of that fold;
  read at the result buffer this names the result, and read at the three arguments it says they are unchanged.
-/
import proofs.«150266_j19370302505132_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    stage of the fold of boundary contents and the three arguments as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.KRun

end
-- ==== Proof.LibDegreeWeight.lean ====
/-
  The two facts about extended reals that join the two arrangements of a degree-normalised neighbourhood sum.

  With `δ = where(deg > 0, deg^(-1/2), 0)` the weight of a node, one program scales every message by the product
  `δ(src) · δ(dst)` before summing the messages of a destination, the other scales messages by `δ(src)` only and
  multiplies the destination's sum by `δ(dst)` afterwards.  Multiplication distributes over a sum of extended reals
  when the factor is nonnegative and finite — whatever the summands are, infinities of both signs included — and the
  weight `δ` is nonnegative and finite for every extended real `deg`.
-/
import Idealize.ShloMosaic.PureOps.Ideal
import Idealize.ShloMosaic.PureOps.Ideal.Laws

noncomputable section

namespace Idealize.ShloMosaic.DegreeWeight

open Idealize.ShloMosaic

/-- The weight `where(x > 0, x^(-1/2), 0)` is nonnegative and finite, for every extended real `x`: at `⊥` and at a
    real `x ≤ 0` it is `0`, at `⊤` it is `⊤^(-1/2) = 0`, at a real `x > 0` it is the real `(√x)⁻¹`. -/
theorem weight_nonneg_ne_top (x : EReal) :
    0 ≤ Scalar.select (Ideal.cmp .ogt x 0) (Ideal.rsqrt x) 0
      ∧ Scalar.select (Ideal.cmp .ogt x 0) (Ideal.rsqrt x) 0 ≠ ⊤ := by
  unfold Scalar.select Ideal.cmp
  induction x using EReal.rec with
  | bot => simp
  | top => simp [Ideal.rsqrt_top]
  | coe r =>
    by_cases hr : 0 < r
    · have h1 : ((0 : EReal) < (r : EReal)) := by exact_mod_cast hr
      have h2 : ¬ r < 0 := not_lt.mpr hr.le
      have h3 : r ≠ 0 := hr.ne'
      simp only [h1, decide_true, BitVec.ofBool_true, if_true, Ideal.rsqrt_coe, h2, h3, if_false]
      refine ⟨?_, EReal.coe_ne_top _⟩
      exact_mod_cast inv_nonneg.mpr (Real.sqrt_nonneg r)
    · have h1 : ¬ ((0 : EReal) < (r : EReal)) := by exact_mod_cast hr
      simp [h1]

/-- A nonnegative finite factor distributes over a finite sum of extended reals. -/
theorem mul_sum {ι : Type*} (s : Finset ι) (a : EReal) (h0 : 0 ≤ a) (ht : a ≠ ⊤) (f : ι → EReal) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- Scaling a destination's sum of source-weighted messages by the destination's weight `a`, and adding the bias,
    is summing the messages weighted by the product of the two weights: `v j` is message `j`'s payload, `w j` its
    source's weight and `wd j` its destination's weight, which is `a` for every message of this destination. -/
theorem scaled_sum_eq {ι : Type*} (s : Finset ι) (a : EReal) (h0 : 0 ≤ a) (ht : a ≠ ⊤) (v w wd : ι → EReal)
    (hwd : ∀ j ∈ s, wd j = a) (b : EReal) :
    a * (0 + ∑ j ∈ s, v j * w j) + b = (0 + ∑ j ∈ s, (w j * wd j) * v j) + b := by
  rw [zero_add, zero_add, mul_sum s a h0 ht]
  congr 1
  refine Finset.sum_congr rfl fun j hj => ?_
  rw [hwd j hj, mul_comm (w j) a, mul_assoc, mul_comm (w j) (v j)]

end Idealize.ShloMosaic.DegreeWeight

end
-- ==== Proof.Spec.lean ====
/-
  The mathematics of a fake-quantised linear layer on the extended reals.

  A row `v` of length `n` has the scale `σ(v) = max(maxₖ |vₖ| / Q, ε)`, and each entry is quantised to
  `q(vₖ) = min(hi, max(lo, round(vₖ / σ(v))))`, rounding to nearest with ties to even.  One program multiplies the
  quantised entries back by the scale before the dot product, `Σₖ (q(xₖ)·σx)·(q(wₖ)·σw)`, and spells the rounding
  with a straight-through term, `d + (round d − d)`; the other takes the dot product of the quantised entries and
  scales afterwards, `((Σₖ q(xₖ)·q(wₖ))·σx)·σw`.

  On the extended reals `d + (round d − d) = round d` needs `d` finite, and a factor moves out of a sum when it is
  nonnegative and finite.  Both hold when the rows are real: then `maxₖ |vₖ|` is real, so `σ(v)` is a real `≥ ε > 0`,
  and `vₖ / σ(v)` is real.
-/
import Idealize.ShloMosaic.PureOps.Ideal
import Idealize.ShloMosaic.PureOps.Ideal.Laws
import proofs.«150266_j19370302505132_2_alg».proof.Proof.LibDegreeWeight

noncomputable section

namespace Cert.QuantSpec

open Idealize.ShloMosaic

/-! ## The three words the scales are built from -/

/-- The word of `7.0` denotes the real `7`. -/
theorem ofBits_seven : Ideal.ofBits .f32 0x40E00000#32 = ((7 : ℝ) : EReal) := by
  simp [Ideal.ofBits, Ideal.ieee, -EReal.coe_mul]; norm_num

/-- The word of `127.0` denotes the real `127`. -/
theorem ofBits_127 : Ideal.ofBits .f32 0x42FE0000#32 = ((127 : ℝ) : EReal) := by
  simp [Ideal.ofBits, Ideal.ieee, -EReal.coe_mul]; norm_num

/-- The word of the scale's floor (the binary32 nearest `1e-8`) denotes a positive real. -/
theorem ofBits_floor_pos : ∃ e : ℝ, 0 < e ∧ Ideal.ofBits .f32 0x322BCC77#32 = (e : EReal) := by
  refine ⟨((2 ^ 23 + 2870391 : ℕ) : ℝ) * (2 : ℝ) ^ ((100 : ℤ) - 127 - 23), by positivity, ?_⟩
  simp [Ideal.ofBits, Ideal.ieee, -EReal.coe_mul]

variable {n : ℕ}

/-! ## Scale and quantisation of a row -/

/-- The largest magnitude of a row, as the fold of `max` from `−∞` over `|vₖ| = max(vₖ, −vₖ)`. -/
def rowAbsMax (row : Fin n → EReal) : EReal :=
  (Finset.univ : Finset (Fin n)).fold max ⊥ fun k => max (row k) (-(row k))

/-- The row's scale `max(maxₖ |vₖ| / Q, ε)`. -/
def rowScale (Q E : EReal) (row : Fin n → EReal) : EReal := max (Ideal.div (rowAbsMax row) Q) E

/-- An entry quantised: `min(hi, max(lo, round(v / s)))`. -/
def quant (lo hi s v : EReal) : EReal :=
  min hi (max lo (Ideal.liftRound Ideal.roundHalfEven (Ideal.div v s)))

/-- The same with the rounding spelt straight-through: `d + (round d − d)` for `d = v / s`. -/
def quantSte (lo hi s v : EReal) : EReal :=
  min hi (max lo (Ideal.div v s + (Ideal.liftRound Ideal.roundHalfEven (Ideal.div v s) - Ideal.div v s)))

/-- The largest magnitude of a nonempty real row is real. -/
theorem rowAbsMax_real (hn : 0 < n) (r : Fin n → ℝ) : ∃ a : ℝ, rowAbsMax (fun k => (r k : EReal)) = (a : EReal) := by
  unfold rowAbsMax
  have hlt : (Finset.univ : Finset (Fin n)).fold max ⊥ (fun k => max ((r k : ℝ) : EReal) (-((r k : ℝ) : EReal))) < ⊤ := by
    rw [Finset.fold_max_lt]
    refine ⟨bot_lt_top, fun k _ => max_lt (EReal.coe_lt_top _) ?_⟩
    rw [← EReal.coe_neg]; exact EReal.coe_lt_top _
  have hgt : ⊥ < (Finset.univ : Finset (Fin n)).fold max ⊥ (fun k => max ((r k : ℝ) : EReal) (-((r k : ℝ) : EReal))) := by
    refine lt_of_lt_of_le (EReal.bot_lt_coe (r ⟨0, hn⟩)) ?_
    rw [Finset.le_fold_max]
    exact Or.inr ⟨⟨0, hn⟩, Finset.mem_univ _, le_max_left _ _⟩
  exact ⟨_, (EReal.coe_toReal hlt.ne hgt.ne').symm⟩

/-- The scale of a nonempty real row, for a real nonzero divisor and a positive real floor, is a positive real. -/
theorem rowScale_real (hn : 0 < n) {q e : ℝ} (hq : q ≠ 0) (he : 0 < e) (r : Fin n → ℝ) :
    ∃ p : ℝ, 0 < p ∧ rowScale (q : EReal) (e : EReal) (fun k => (r k : EReal)) = (p : EReal) := by
  obtain ⟨a, ha⟩ := rowAbsMax_real hn r
  refine ⟨max (a * (1 / q)) e, lt_max_of_lt_right he, ?_⟩
  unfold rowScale
  rw [ha, Ideal.div_coe hq, ← EReal.coe_mul]
  exact (Monotone.map_max EReal.coe_strictMono.monotone).symm

/-- For a real entry and a real nonzero scale the straight-through spelling is the rounding itself. -/
theorem quantSte_eq_quant (lo hi : EReal) {p : ℝ} (hp : p ≠ 0) (v : ℝ) :
    quantSte lo hi (p : EReal) (v : EReal) = quant lo hi (p : EReal) (v : EReal) := by
  unfold quantSte quant
  rw [Ideal.div_coe hp, ← EReal.coe_mul, Ideal.liftRound_coe, ← EReal.coe_sub, ← EReal.coe_add]
  have h : v * (1 / p) + (((Ideal.roundHalfEven (v * (1 / p)) : ℤ) : ℝ) - v * (1 / p))
      = ((Ideal.roundHalfEven (v * (1 / p)) : ℤ) : ℝ) := by ring
  rw [h]

/-! ## The law joining the two arrangements -/

/-- Two nonnegative real scales move out of a dot product of extended reals. -/
theorem scaled_dot_eq (a b : Fin n → EReal) {s t : ℝ} (hs : 0 ≤ s) (ht : 0 ≤ t) :
    ∑ k, (a k * (s : EReal)) * (b k * (t : EReal)) = ((∑ k, a k * b k) * (s : EReal)) * (t : EReal) := by
  have h0 : (0 : EReal) ≤ ((s * t : ℝ) : EReal) := by exact_mod_cast mul_nonneg hs ht
  rw [mul_assoc, ← EReal.coe_mul, mul_comm (∑ k, a k * b k),
    DegreeWeight.mul_sum _ _ h0 (EReal.coe_ne_top _)]
  refine Finset.sum_congr rfl fun k _ => ?_
  rw [EReal.coe_mul, mul_mul_mul_comm, mul_comm]

/-- One entry of the layer: for real rows `x`, `w` the two arrangements agree, whatever the bias. -/
theorem entry_eq (hn : 0 < n) (lox hix low hiw : EReal) {qx qw e : ℝ} (hqx : qx ≠ 0) (hqw : qw ≠ 0) (he : 0 < e)
    (x w : Fin n → ℝ) (bias : EReal) :
    (∑ k, (quantSte lox hix (rowScale (qx : EReal) (e : EReal) (fun j => (x j : EReal))) (x k : EReal)
            * rowScale (qx : EReal) (e : EReal) (fun j => (x j : EReal)))
          * (quantSte low hiw (rowScale (qw : EReal) (e : EReal) (fun j => (w j : EReal))) (w k : EReal)
            * rowScale (qw : EReal) (e : EReal) (fun j => (w j : EReal)))) + bias
      = ((∑ k, quant lox hix (rowScale (qx : EReal) (e : EReal) (fun j => (x j : EReal))) (x k : EReal)
            * quant low hiw (rowScale (qw : EReal) (e : EReal) (fun j => (w j : EReal))) (w k : EReal))
          * rowScale (qx : EReal) (e : EReal) (fun j => (x j : EReal)))
        * rowScale (qw : EReal) (e : EReal) (fun j => (w j : EReal)) + bias := by
  obtain ⟨p, hp, hpe⟩ := rowScale_real hn hqx he x
  obtain ⟨p', hp', hpe'⟩ := rowScale_real hn hqw he w
  rw [hpe, hpe']
  simp only [quantSte_eq_quant _ _ hp.ne', quantSte_eq_quant _ _ hp'.ne']
  rw [scaled_dot_eq _ _ hp.le hp'.le]

end Cert.QuantSpec

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.WQuantEntry.lean ====
/-
  The weight-quantisation launch, entry by entry.

  Each grid point loads 256 rows of the weight, `x0`.  It stores the rows' scales as a `[256, 1]` column, and the
  quantised rows TRANSPOSED as a `[2048, 256]` block: entry `(k, r)` of that block is row `r`'s entry `k`, quantised by
  row `r`'s scale.
-/
import proofs.«150266_j19370302505132_2_alg».proof.Proof.Gen.KernelIdeal.Skeleton
import proofs.«150266_j19370302505132_2_alg».proof.Proof.Spec
import proofs.«150266_j19370302505132_2_alg».proof.Proof.LibKeepdims
import proofs.«150266_j19370302505132_2_alg».proof.Proof.LibRowOps
import Idealize.ShloMosaic.Lib.ValueIdx
import Idealize.ShloMosaic.Lib.ValueLayout
import Idealize.ShloMosaic.Lib.Pipeline.Value

noncomputable section

namespace Cert.KernelIdeal.WQuant

open Cert.KernelIdeal Cert.KernelIdeal.Gen Cert.QuantSpec
open Idealize.ShloMosaic Idealize.ShloMosaic.ValueIdx

/-- The stored scale column at `(r, 0)` is the scale of row `r` of the loaded rows. -/
theorem scale_entry (x0 : FVec Ideal S256x2048 .f32) (r : Fin 256) (u : Fin 1) :
    k0_pay1 (F := Ideal) x0 (ix2 r u)
      = rowScale (Ideal.ofBits .f32 0x40E00000#32) (Ideal.ofBits .f32 0x322BCC77#32) (fun k : Fin 2048 => x0 (ix2 r k)) := by
  unfold k0_pay1
  show max (Ideal.div (shapeCast S256x1 (multiReduction .maximumf [1] S256 (absf x0) 0xFF800000#32 reduces_S256x2048_S256 (.inl rfl) rfl)
      shapeCasts_S256_S256x1 (ix2 r u)) (Ideal.ofBits .f32 0x40E00000#32)) (Ideal.ofBits .f32 0x322BCC77#32) = _
  rw [Keepdims.shapeCast_a_a1_apply]
  exact congrArg (fun z => max (Ideal.div z (Ideal.ofBits .f32 0x40E00000#32)) (Ideal.ofBits .f32 0x322BCC77#32))
    (RowOps.rowMax_apply (absf x0) reduces_S256x2048_S256 rfl r)

/-- The stored transposed block at `(k, r)` is row `r`'s entry `k` quantised by row `r`'s scale. -/
theorem qwt_entry (x0 : FVec Ideal S256x2048 .f32) (k : Fin 2048) (r : Fin 256) :
    k0_pay2 (F := Ideal) x0 (ix2 k r)
      = quant (Ideal.ofBits .f32 0xC1000000#32) (Ideal.ofBits .f32 0x40E00000#32)
          (rowScale (Ideal.ofBits .f32 0x40E00000#32) (Ideal.ofBits .f32 0x322BCC77#32) (fun j : Fin 2048 => x0 (ix2 r j)))
          (x0 (ix2 r k)) := by
  unfold k0_pay2
  refine (truncf_apply (ψ := .bf16) _ bitsLt_bf16_f32 (ix2 k r)).trans ?_
  refine (transpose_ix2_apply _ transposes_S256x2048_p1_0_S2048x256 k r).trans ?_
  show min (Ideal.ofBits .f32 0x40E00000#32) (max (Ideal.ofBits .f32 0xC1000000#32)
      (Ideal.liftRound Ideal.roundHalfEven (Ideal.div (x0 (ix2 r k))
        (broadcastTo S256x2048 (k0_pay1 (F := Ideal) x0) broadcasts_S256x1_S256x2048 (ix2 r k))))) = _
  rw [Keepdims.broadcastTo_a1_ab_apply, scale_entry]
  rfl

end Cert.KernelIdeal.WQuant

end
-- ==== Proof.WQuantArray.lean ====
/-
  The weight-quantisation launch, array by array.

  Grid point `t` (of 8) reads rows `256·t … 256·t + 255` of the weight and writes two blocks: columns
  `256·t … 256·t + 255` of the transposed quantised weight `[2048, 2048]`, and rows `256·t …` of the scale column
  `[2048, 1]`.  The eight column blocks tile the first array and the eight row blocks the second, so after the
  launch each is one function of the weight: entry `(k, o)` of the first is the weight's `(o, k)` quantised by row `o`'s
  scale, entry `(o, 0)` of the second is row `o`'s scale.
-/
import proofs.«150266_j19370302505132_2_alg».proof.Proof.Gen.KernelIdeal.Frame
import proofs.«150266_j19370302505132_2_alg».proof.Proof.WQuantEntry

set_option maxRecDepth 16384

noncomputable section

namespace Cert.KernelIdeal.WQuant

open Cert.KernelIdeal Cert.KernelIdeal.Gen Cert.QuantSpec
open Idealize.ShloMosaic Idealize.ShloMosaic.TcCoe Idealize.ShloMosaic.ValueIdx Idealize.SL.Sem
open Idealize.ShloMosaic.Pipeline (Dat)

/-- The transposed quantised weight: entry `(k, o)` is the weight's entry `(o, k)` quantised by row `o`'s scale. -/
def Qwt (w : S2048x2048.Idx → EReal) : S2048x2048.Idx → EReal := fun j =>
  quant (Ideal.ofBits .f32 0xC1000000#32) (Ideal.ofBits .f32 0x40E00000#32)
    (rowScale (Ideal.ofBits .f32 0x40E00000#32) (Ideal.ofBits .f32 0x322BCC77#32) (fun k : Fin 2048 => w (ix2 (j 1) k)))
    (w (ix2 (j 1) (j 0)))

/-- The weight's row scales as a column. -/
def Scw (w : S2048x2048.Idx → EReal) : S2048x1.Idx → EReal := fun j =>
  rowScale (Ideal.ofBits .f32 0x40E00000#32) (Ideal.ofBits .f32 0x322BCC77#32) (fun k : Fin 2048 => w (ix2 (j 0) k))

theorem hz : (![0, 0] : Fin 2 → Nat) = fun _ => 0 := funext fun a => by fin_cases a <;> rfl

/-- Where each window's block sits at grid point `t`: the input at row block `t`, the transposed output at column
    block `t`, the scale column at row block `t`. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0 :=
  (by decide +kernel : ∀ t : Fin grid0.N, _)

/-- A transposed output block is the block of `Qwt W` at columns `256·T …`, when the loaded rows are rows `256·T …` of `W`. -/
theorem qwt_block (W : S2048x2048.Idx → EReal) (x0 : FVec Ideal S256x2048 .f32) (T : ℕ) (hT : T < 8)
    (hx : ∀ (r : Fin 256) (k : Fin 2048), x0 (ix2 r k) = W (ix2 (⟨T * 256 + r.val, by omega⟩ : Fin 2048) k))
    (y : S2048x256.Idx) (i : S2048x2048.Idx) (hi0 : (i 0).val = (y 0).val) (hi1 : (i 1).val = T * 256 + (y 1).val) :
    k0_pay2 (F := Ideal) x0 y = Qwt W i := by
  obtain ⟨k, r, rfl⟩ : ∃ (k : Fin 2048) (r : Fin 256), y = ix2 k r := ⟨y 0, y 1, eq_ix2 y⟩
  have hlt : T * 256 + r.val < 2048 := by omega
  obtain ⟨a, b, rfl⟩ : ∃ (a : Fin 2048) (b : Fin 2048), i = ix2 a b := ⟨i 0, i 1, eq_ix2 i⟩
  have ha : a = k := Fin.ext hi0
  have hb : b = (⟨T * 256 + r.val, hlt⟩ : Fin 2048) := Fin.ext hi1
  subst ha; subst hb
  rw [qwt_entry]
  simp only [hx]
  rfl

/-- A scale block is the block of `Scw W` at rows `256·T …`. -/
theorem scw_block (W : S2048x2048.Idx → EReal) (x0 : FVec Ideal S256x2048 .f32) (T : ℕ) (hT : T < 8)
    (hx : ∀ (r : Fin 256) (k : Fin 2048), x0 (ix2 r k) = W (ix2 (⟨T * 256 + r.val, by omega⟩ : Fin 2048) k))
    (y : S256x1.Idx) (i : S2048x1.Idx) (hi0 : (i 0).val = T * 256 + (y 0).val) :
    k0_pay1 (F := Ideal) x0 y = Scw W i := by
  obtain ⟨r, u, rfl⟩ : ∃ (r : Fin 256) (u : Fin 1), y = ix2 r u := ⟨y 0, y 1, eq_ix2 y⟩
  have hlt : T * 256 + r.val < 2048 := by omega
  obtain ⟨a, b, rfl⟩ : ∃ (a : Fin 2048) (b : Fin 1), i = ix2 a b := ⟨i 0, i 1, eq_ix2 i⟩
  have ha : a = (⟨T * 256 + r.val, hlt⟩ : Fin 2048) := Fin.ext hi0
  subst ha
  rw [scale_entry]
  simp only [hx]
  rfl

section
variable (V : (c : Dev nD) → (b : Ref sig .tc) → Buf (Elt Ideal) ((c : Thread nD τ).loc b))

/-- The rows grid point `t` loads are rows `256·t …` of the weight as the launch finds it. -/
theorem in_block (c : Dev nD) (t : Fin cfg0.N) (ht : t.val < 8) (r : Fin 256) (k : Fin 2048) :
    iblk0 V c 0 t (ix2 r k) = V c main_arg1 (ix2 (⟨t.val * 256 + r.val, by omega⟩ : Fin 2048) k) := by
  obtain ⟨e0, e1, e2, e3, e4, e5⟩ := idx_facts t
  show V c main_arg1 (((cfg0.win 0).blk t).view.emb (ix2 r k)) = _
  refine congrArg (V c main_arg1) (funext fun a => Fin.ext ?_)
  match a with
  | ⟨0, _⟩ => show win0_0.index t (0 : Fin 2) * 256 + 1 * r.val = t.val * 256 + r.val; omega
  | ⟨1, _⟩ => show win0_0.index t (1 : Fin 2) * 2048 + 1 * k.val = k.val; omega

/-- What grid point `t` writes back of the transposed quantised weight is block `t` of `Qwt` of the weight. -/
theorem flushed_qwt (c : Dev nD) (t : Fin cfg0.N) :
    (dat0 V c).flushed 1 t = ((cfg0.win 1).blk t).view.read (Elt Ideal) (Qwt (V c main_arg1)) := by
  show (cfg0.win 1).cut (grid0.coords t) ((dat0 V c).after 1 t) = _
  rw [after0_1]
  unfold out0_1
  rw [View.canon_unit_zero hz]
  simp only [View.ld_unit_zero (S := S256x2048) hz]
  obtain ⟨e0, e1, e2, e3, e4, e5⟩ := idx_facts t
  have ht : t.val < 8 := lt_of_lt_of_eq t.isLt N_0
  funext y
  refine qwt_block (V c main_arg1) (iblk0 V c 0 t) t.val ht (fun r k => in_block V c t ht r k) y
    (((cfg0.win 1).blk t).view.emb y) ?_ ?_
  · show win0_1.index t (0 : Fin 2) * 2048 + 1 * (y 0).val = (y 0).val; omega
  · show win0_1.index t (1 : Fin 2) * 256 + 1 * (y 1).val = t.val * 256 + (y 1).val; omega

/-- What grid point `t` writes back of the scale column is block `t` of `Scw` of the weight. -/
theorem flushed_scw (c : Dev nD) (t : Fin cfg0.N) :
    (dat0 V c).flushed 2 t = ((cfg0.win 2).blk t).view.read (Elt Ideal) (Scw (V c main_arg1)) := by
  show (cfg0.win 2).cut (grid0.coords t) ((dat0 V c).after 2 t) = _
  rw [after0_2]
  unfold out0_2
  rw [View.canon_unit_zero hz]
  simp only [View.ld_unit_zero (S := S256x2048) hz]
  obtain ⟨e0, e1, e2, e3, e4, e5⟩ := idx_facts t
  have ht : t.val < 8 := lt_of_lt_of_eq t.isLt N_0
  funext y
  refine scw_block (V c main_arg1) (iblk0 V c 0 t) t.val ht (fun r k => in_block V c t ht r k) y
    (((cfg0.win 2).blk t).view.emb y) ?_
  show win0_2.index t (0 : Fin 2) * 256 + 1 * (y 0).val = t.val * 256 + (y 0).val; omega

theorem mem_blk1 (t : Fin cfg0.N) (i : S2048x2048.Idx) :
    i ∈ ((cfg0.win 1).blk t).view.set ↔ ∀ a : Fin 2, win0_1.index t a * S2048x256.size a ≤ (i a).val
      ∧ (i a).val < win0_1.index t a * S2048x256.size a + S2048x256.size a := by
  show i ∈ ((View.whole main_v2_0).slice (win0_1.rect t)).set ↔ _
  rw [View.set_slice_whole, Rect.mem_set_unit]
  exact Iff.rfl

theorem mem_blk2 (t : Fin cfg0.N) (i : S2048x1.Idx) :
    i ∈ ((cfg0.win 2).blk t).view.set ↔ ∀ a : Fin 2, win0_2.index t a * S256x1.size a ≤ (i a).val
      ∧ (i a).val < win0_2.index t a * S256x1.size a + S256x1.size a := by
  show i ∈ ((View.whole main_v2_1).slice (win0_2.rect t)).set ↔ _
  rw [View.set_slice_whole, Rect.mem_set_unit]
  exact Iff.rfl

/-- After the launch the transposed quantised weight is `Qwt` of the weight. -/
theorem final_qwt (c : Dev nD) : (dat0 V c).arrAt 1 cfg0.N = Qwt (V c main_arg1) :=
  (dat0 V c).arrAt_eq_of_cover 1 (Qwt (V c main_arg1)) (fun t _ => flushed_qwt V c t) fun i => by
    have hi0 : (i 0).val < 2048 := (i 0).isLt
    have hi1 : (i 1).val < 2048 := (i 1).isLt
    have hN : cfg0.N = 8 := N_0
    let t : Fin cfg0.N := ⟨(i 1).val / 256, by rw [hN]; omega⟩
    obtain ⟨e0, e1, e2, e3, e4, e5⟩ := idx_facts t
    have htv : t.val = (i 1).val / 256 := rfl
    refine ⟨t, flush0_1 t, ?_⟩
    rw [mem_blk1]
    intro a
    match a with
    | ⟨0, _⟩ => show win0_1.index t (0 : Fin 2) * 2048 ≤ (i 0).val ∧ (i 0).val < win0_1.index t (0 : Fin 2) * 2048 + 2048; omega
    | ⟨1, _⟩ => show win0_1.index t (1 : Fin 2) * 256 ≤ (i 1).val ∧ (i 1).val < win0_1.index t (1 : Fin 2) * 256 + 256; omega

/-- After the launch the scale column is `Scw` of the weight. -/
theorem final_scw (c : Dev nD) : (dat0 V c).arrAt 2 cfg0.N = Scw (V c main_arg1) :=
  (dat0 V c).arrAt_eq_of_cover 2 (Scw (V c main_arg1)) (fun t _ => flushed_scw V c t) fun i => by
    have hi0 : (i 0).val < 2048 := (i 0).isLt
    have hi1 : (i 1).val < 1 := (i 1).isLt
    have hN : cfg0.N = 8 := N_0
    let t : Fin cfg0.N := ⟨(i 0).val / 256, by rw [hN]; omega⟩
    obtain ⟨e0, e1, e2, e3, e4, e5⟩ := idx_facts t
    have htv : t.val = (i 0).val / 256 := rfl
    refine ⟨t, flush0_2 t, ?_⟩
    rw [mem_blk2]
    intro a
    match a with
    | ⟨0, _⟩ => show win0_2.index t (0 : Fin 2) * 256 ≤ (i 0).val ∧ (i 0).val < win0_2.index t (0 : Fin 2) * 256 + 256; omega
    | ⟨1, _⟩ => show win0_2.index t (1 : Fin 2) * 1 ≤ (i 1).val ∧ (i 1).val < win0_2.index t (1 : Fin 2) * 1 + 1; omega

end

end Cert.KernelIdeal.WQuant

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.QLinearEntry.lean ====
/-
  The linear-layer launch, entry by entry.

  Each grid point loads 256 rows of the activations `x0`, the whole transposed quantised weight `qw` (`[2048, 2048]`,
  contraction index first), the weight scales as a row `srow` and the bias as a row `brow`.  Entry `(p, o)` of what it
  stores is the dot product of row `p` of `x0`, quantised by its own scale, with column `o` of `qw`; times row `p`'s
  scale; times `srow(o)`; plus `brow(o)`.
-/
import proofs.«150266_j19370302505132_2_alg».proof.Proof.Gen.KernelIdeal.Skeleton
import proofs.«150266_j19370302505132_2_alg».proof.Proof.Spec
import proofs.«150266_j19370302505132_2_alg».proof.Proof.LibKeepdims
import proofs.«150266_j19370302505132_2_alg».proof.Proof.LibRowOps
import proofs.«150266_j19370302505132_2_alg».proof.Proof.LibPlainDot
import Idealize.ShloMosaic.Lib.ValueIdx
import Idealize.ShloMosaic.Lib.ValueLayout
import Idealize.ShloMosaic.Lib.Pipeline.Value

noncomputable section

namespace Cert.KernelIdeal.QLinear

open Cert.KernelIdeal Cert.KernelIdeal.Gen Cert.QuantSpec
open Idealize.ShloMosaic Idealize.ShloMosaic.ValueIdx

/-- The rows' scales as the kernel computes them: a `[256, 1]` column. -/
def scaleCol (x0 : FVec Ideal S256x2048 .f32) : FVec Ideal S256x1 .f32 :=
  maximumf (divf (shapeCast S256x1 (multiReduction .maximumf [1] S256 (absf x0) 0xFF800000#32 reduces_S256x2048_S256 (.inl rfl) rfl)
      shapeCasts_S256_S256x1) (broadcast S256x1 (Scalar.ofBits (F := Ideal) .f32 0x42FE0000#32)))
    (broadcast S256x1 (Scalar.ofBits (F := Ideal) .f32 0x322BCC77#32))

/-- The scale column at `(r, 0)` is the scale of row `r`. -/
theorem scaleCol_apply (x0 : FVec Ideal S256x2048 .f32) (r : Fin 256) (u : Fin 1) :
    scaleCol x0 (ix2 r u)
      = rowScale (Ideal.ofBits .f32 0x42FE0000#32) (Ideal.ofBits .f32 0x322BCC77#32) (fun k : Fin 2048 => x0 (ix2 r k)) := by
  unfold scaleCol
  show max (Ideal.div (shapeCast S256x1 (multiReduction .maximumf [1] S256 (absf x0) 0xFF800000#32 reduces_S256x2048_S256 (.inl rfl) rfl)
      shapeCasts_S256_S256x1 (ix2 r u)) (Ideal.ofBits .f32 0x42FE0000#32)) (Ideal.ofBits .f32 0x322BCC77#32) = _
  rw [Keepdims.shapeCast_a_a1_apply]
  exact congrArg (fun z => max (Ideal.div z (Ideal.ofBits .f32 0x42FE0000#32)) (Ideal.ofBits .f32 0x322BCC77#32))
    (RowOps.rowMax_apply (absf x0) reduces_S256x2048_S256 rfl r)

/-! The matrix product's dimension record contracts the left operand's second axis with the right operand's first. -/

theorem dot_l0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide),
    dif_pos (show (0 : Fin S256x2048.rank) ∈ dot_S256x2048_S2048x2048_S256x2048_1_0_0_1_n_n.lhsNonContracting by decide)]
  rfl

theorem dot_l1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q

theorem dot_r0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q

theorem dot_r1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide),
    dif_pos (show (1 : Fin S2048x2048.rank) ∈ dot_S256x2048_S2048x2048_S256x2048_1_0_0_1_n_n.rhsNonContracting by decide)]
  rfl

/-- The stored block at `(p, o)`. -/
theorem out_entry (x0 : FVec Ideal S256x2048 .f32) (qw : FVec Ideal S2048x2048 .bf16) (srow brow : FVec Ideal S1x2048 .f32)
    (p : Fin 256) (o : Fin 2048) :
    k1_pay1 (F := Ideal) x0 qw srow brow (ix2 p o)
      = ((∑ k : Fin 2048,
            quant (Ideal.ofBits .f32 0xC3000000#32) (Ideal.ofBits .f32 0x42FE0000#32)
              (rowScale (Ideal.ofBits .f32 0x42FE0000#32) (Ideal.ofBits .f32 0x322BCC77#32) (fun j : Fin 2048 => x0 (ix2 p j)))
              (x0 (ix2 p k)) * qw (ix2 k o))
          * rowScale (Ideal.ofBits .f32 0x42FE0000#32) (Ideal.ofBits .f32 0x322BCC77#32) (fun j : Fin 2048 => x0 (ix2 p j)))
        * srow (ix2 (0 : Fin 1) o) + brow (ix2 (0 : Fin 1) o) := by
  unfold k1_pay1
  simp only [shapeCast_self]
  show (matmul dot_S256x2048_S2048x2048_S256x2048_1_0_0_1_n_n none
          (truncf .bf16 (minimumf (broadcast S256x2048 (Scalar.ofBits (F := Ideal) .f32 0x42FE0000#32))
            (maximumf (broadcast S256x2048 (Scalar.ofBits (F := Ideal) .f32 0xC3000000#32))
              (roundeven (divf x0 (broadcastTo S256x2048 (scaleCol x0) broadcasts_S256x1_S256x2048))))) bitsLt_bf16_f32)
          qw (constant (F := Ideal) S256x2048 .f32 0x00000000#32) (ix2 p o)
        * broadcastTo S256x2048 (scaleCol x0) broadcasts_S256x1_S256x2048 (ix2 p o))
      * broadcastTo S256x2048 srow broadcasts_S1x2048_S256x2048 (ix2 p o)
      + broadcastTo S256x2048 brow broadcasts_S1x2048_S256x2048 (ix2 p o) = _
  rw [PlainDot.matmul_zero_apply _ none rfl rfl dot_l0 dot_l1 dot_r0 dot_r1, Keepdims.broadcastTo_a1_ab_apply,
    broadcastTo_1b_ab_apply, broadcastTo_1b_ab_apply, scaleCol_apply]
  refine congrArg (fun z => z * _ * srow (ix2 (0 : Fin 1) o) + brow (ix2 (0 : Fin 1) o)) ?_
  refine Finset.sum_congr rfl fun k _ => congrArg (fun z => z * qw (ix2 k o)) ?_
  show min (Ideal.ofBits .f32 0x42FE0000#32) (max (Ideal.ofBits .f32 0xC3000000#32)
      (Ideal.liftRound Ideal.roundHalfEven (Ideal.div (x0 (ix2 p k))
        (broadcastTo S256x2048 (scaleCol x0) broadcasts_S256x1_S256x2048 (ix2 p k))))) = _
  rw [Keepdims.broadcastTo_a1_ab_apply, scaleCol_apply]
  rfl

end Cert.KernelIdeal.QLinear

end
-- ==== Proof.QLinearArray.lean ====
/-
  The linear-layer launch, array by array.

  Grid point `t` (of 32) reads rows `256·t … 256·t + 255` of the `[8192, 2048]` activations and, whole, the transposed
  quantised weight, the weight-scale row and the bias row; it writes rows `256·t …` of the `[8192, 2048]` result.  The
  32 row blocks tile the result, so after the launch it is one function `Out` of the four arrays.
-/
import proofs.«150266_j19370302505132_2_alg».proof.Proof.Gen.KernelIdeal.Frame
import proofs.«150266_j19370302505132_2_alg».proof.Proof.QLinearEntry

set_option maxRecDepth 16384

noncomputable section

namespace Cert.KernelIdeal.QLinear

open Cert.KernelIdeal Cert.KernelIdeal.Gen Cert.QuantSpec
open Idealize.ShloMosaic Idealize.ShloMosaic.TcCoe Idealize.ShloMosaic.ValueIdx Idealize.SL.Sem
open Idealize.ShloMosaic.Pipeline (Dat)

/-- The launch's result from its four arrays: entry `(m, o)` is the dot product of row `m` of `X`, quantised by its own
    scale, with column `o` of `Q`; times row `m`'s scale; times `sr(o)`; plus `br(o)`. -/
def Out (X : S8192x2048.Idx → EReal) (Q : S2048x2048.Idx → EReal) (sr br : S1x2048.Idx → EReal) : S8192x2048.Idx → EReal := fun j =>
  ((∑ k : Fin 2048,
        quant (Ideal.ofBits .f32 0xC3000000#32) (Ideal.ofBits .f32 0x42FE0000#32)
          (rowScale (Ideal.ofBits .f32 0x42FE0000#32) (Ideal.ofBits .f32 0x322BCC77#32) (fun l : Fin 2048 => X (ix2 (j 0) l)))
          (X (ix2 (j 0) k)) * Q (ix2 k (j 1)))
      * rowScale (Ideal.ofBits .f32 0x42FE0000#32) (Ideal.ofBits .f32 0x322BCC77#32) (fun l : Fin 2048 => X (ix2 (j 0) l)))
    * sr (ix2 (0 : Fin 1) (j 1)) + br (ix2 (0 : Fin 1) (j 1))

theorem hz : (![0, 0] : Fin 2 → Nat) = fun _ => 0 := funext fun a => by fin_cases a <;> rfl

/-- Where each window's block sits at grid point `t`: activations and result at row block `t`, the other three whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A result block is the block of `Out` at rows `256·T …`, when the loaded rows are rows `256·T …` of `X` and the
    other three loads are the whole arrays. -/
theorem out_block (X : S8192x2048.Idx → EReal) (Q : S2048x2048.Idx → EReal) (sr br : S1x2048.Idx → EReal)
    (x0 : FVec Ideal S256x2048 .f32) (qw : FVec Ideal S2048x2048 .bf16) (srow brow : FVec Ideal S1x2048 .f32)
    (T : ℕ) (hT : T < 32)
    (hx : ∀ (r : Fin 256) (k : Fin 2048), x0 (ix2 r k) = X (ix2 (⟨T * 256 + r.val, by omega⟩ : Fin 8192) k))
    (hq : ∀ (k o : Fin 2048), qw (ix2 k o) = Q (ix2 k o))
    (hs : ∀ o : Fin 2048, srow (ix2 (0 : Fin 1) o) = sr (ix2 (0 : Fin 1) o))
    (hb : ∀ o : Fin 2048, brow (ix2 (0 : Fin 1) o) = br (ix2 (0 : Fin 1) o))
    (y : S256x2048.Idx) (i : S8192x2048.Idx) (hi0 : (i 0).val = T * 256 + (y 0).val) (hi1 : (i 1).val = (y 1).val) :
    k1_pay1 (F := Ideal) x0 qw srow brow y = Out X Q sr br i := by
  obtain ⟨p, o, rfl⟩ : ∃ (p : Fin 256) (o : Fin 2048), y = ix2 p o := ⟨y 0, y 1, eq_ix2 y⟩
  have hlt : T * 256 + p.val < 8192 := by omega
  obtain ⟨a, b, rfl⟩ : ∃ (a : Fin 8192) (b : Fin 2048), i = ix2 a b := ⟨i 0, i 1, eq_ix2 i⟩
  have ha : a = (⟨T * 256 + p.val, hlt⟩ : Fin 8192) := Fin.ext hi0
  have hb' : b = o := Fin.ext hi1
  subst ha; subst hb'
  rw [out_entry]
  simp only [hx, hq, hs, hb]
  rfl

section
variable (V : (c : Dev nD) → (b : Ref sig .tc) → Buf (Elt Ideal) ((c : Thread nD τ).loc b))

theorem in_x (c : Dev nD) (t : Fin cfg1.N) (ht : t.val < 32) (r : Fin 256) (k : Fin 2048) :
    iblk1 V c 0 t (ix2 r k) = V c main_v0 (ix2 (⟨t.val * 256 + r.val, by omega⟩ : Fin 8192) k) := by
  obtain ⟨e0, e1, e2, e3, e4, e5, e6, e7, e8, e9⟩ := idx_facts t
  show V c main_v0 (((cfg1.win 0).blk t).view.emb (ix2 r k)) = _
  refine congrArg (V c main_v0) (funext fun a => Fin.ext ?_)
  match a with
  | ⟨0, _⟩ => show win1_0.index t (0 : Fin 2) * 256 + 1 * r.val = t.val * 256 + r.val; omega
  | ⟨1, _⟩ => show win1_0.index t (1 : Fin 2) * 2048 + 1 * k.val = k.val; omega

theorem in_q (c : Dev nD) (t : Fin cfg1.N) (k o : Fin 2048) :
    iblk1 V c 1 t (ix2 k o) = V c main_v2_0 (ix2 k o) := by
  obtain ⟨e0, e1, e2, e3, e4, e5, e6, e7, e8, e9⟩ := idx_facts t
  show V c main_v2_0 (((cfg1.win 1).blk t).view.emb (ix2 k o)) = _
  refine congrArg (V c main_v2_0) (funext fun a => Fin.ext ?_)
  match a with
  | ⟨0, _⟩ => show win1_1.index t (0 : Fin 2) * 2048 + 1 * k.val = k.val; omega
  | ⟨1, _⟩ => show win1_1.index t (1 : Fin 2) * 2048 + 1 * o.val = o.val; omega

theorem in_s (c : Dev nD) (t : Fin cfg1.N) (o : Fin 2048) :
    iblk1 V c 2 t (ix2 (0 : Fin 1) o) = V c main_v3 (ix2 (0 : Fin 1) o) := by
  obtain ⟨e0, e1, e2, e3, e4, e5, e6, e7, e8, e9⟩ := idx_facts t
  show V c main_v3 (((cfg1.win 2).blk t).view.emb (ix2 (0 : Fin 1) o)) = _
  refine congrArg (V c main_v3) (funext fun a => Fin.ext ?_)
  match a with
  | ⟨0, _⟩ => show win1_2.index t (0 : Fin 2) * 1 + 1 * 0 = 0; omega
  | ⟨1, _⟩ => show win1_2.index t (1 : Fin 2) * 2048 + 1 * o.val = o.val; omega

theorem in_b (c : Dev nD) (t : Fin cfg1.N) (o : Fin 2048) :
    iblk1 V c 3 t (ix2 (0 : Fin 1) o) = V c main_v1 (ix2 (0 : Fin 1) o) := by
  obtain ⟨e0, e1, e2, e3, e4, e5, e6, e7, e8, e9⟩ := idx_facts t
  show V c main_v1 (((cfg1.win 3).blk t).view.emb (ix2 (0 : Fin 1) o)) = _
  refine congrArg (V c main_v1) (funext fun a => Fin.ext ?_)
  match a with
  | ⟨0, _⟩ => show win1_3.index t (0 : Fin 2) * 1 + 1 * 0 = 0; omega
  | ⟨1, _⟩ => show win1_3.index t (1 : Fin 2) * 2048 + 1 * o.val = o.val; omega

/-- What grid point `t` writes back is block `t` of `Out` of the four arrays as the launch finds them. -/
theorem flushed_out (c : Dev nD) (t : Fin cfg1.N) :
    (dat1 V c).flushed 4 t
      = ((cfg1.win 4).blk t).view.read (Elt Ideal) (Out (V c main_v0) (V c main_v2_0) (V c main_v3) (V c main_v1)) := by
  show (cfg1.win 4).cut (grid1.coords t) ((dat1 V c).after 4 t) = _
  rw [after1_4]
  unfold out1_4
  rw [View.canon_unit_zero hz]
  simp only [View.ld_unit_zero (S := S256x2048) hz, View.ld_unit_zero (S := S2048x2048) hz, View.ld_unit_zero (S := S1x2048) hz]
  obtain ⟨e0, e1, e2, e3, e4, e5, e6, e7, e8, e9⟩ := idx_facts t
  have ht : t.val < 32 := lt_of_lt_of_eq t.isLt N_1
  funext y
  refine out_block (V c main_v0) (V c main_v2_0) (V c main_v3) (V c main_v1)
    (iblk1 V c 0 t) (iblk1 V c 1 t) (iblk1 V c 2 t) (iblk1 V c 3 t) t.val ht
    (fun r k => in_x V c t ht r k) (fun k o => in_q V c t k o) (fun o => in_s V c t o) (fun o => in_b V c t o)
    y (((cfg1.win 4).blk t).view.emb y) ?_ ?_
  · show win1_4.index t (0 : Fin 2) * 256 + 1 * (y 0).val = t.val * 256 + (y 0).val; omega
  · show win1_4.index t (1 : Fin 2) * 2048 + 1 * (y 1).val = (y 1).val; omega

theorem mem_blk4 (t : Fin cfg1.N) (i : S8192x2048.Idx) :
    i ∈ ((cfg1.win 4).blk t).view.set ↔ ∀ a : Fin 2, win1_4.index t a * S256x2048.size a ≤ (i a).val
      ∧ (i a).val < win1_4.index t a * S256x2048.size a + S256x2048.size a := by
  show i ∈ ((View.whole main_v4).slice (win1_4.rect t)).set ↔ _
  rw [View.set_slice_whole, Rect.mem_set_unit]
  exact Iff.rfl

/-- After the launch the result array is `Out` of the four arrays as the launch found them. -/
theorem final_out (c : Dev nD) :
    (dat1 V c).arrAt 4 cfg1.N = Out (V c main_v0) (V c main_v2_0) (V c main_v3) (V c main_v1) :=
  (dat1 V c).arrAt_eq_of_cover 4 (Out (V c main_v0) (V c main_v2_0) (V c main_v3) (V c main_v1))
    (fun t _ => flushed_out V c t) fun i => by
    have hi0 : (i 0).val < 8192 := (i 0).isLt
    have hi1 : (i 1).val < 2048 := (i 1).isLt
    have hN : cfg1.N = 32 := N_1
    let t : Fin cfg1.N := ⟨(i 0).val / 256, by rw [hN]; omega⟩
    obtain ⟨e0, e1, e2, e3, e4, e5, e6, e7, e8, e9⟩ := idx_facts t
    have htv : t.val = (i 0).val / 256 := rfl
    refine ⟨t, flush1_4 t, ?_⟩
    rw [mem_blk4]
    intro a
    match a with
    | ⟨0, _⟩ => show win1_4.index t (0 : Fin 2) * 256 ≤ (i 0).val ∧ (i 0).val < win1_4.index t (0 : Fin 2) * 256 + 256; omega
    | ⟨1, _⟩ => show win1_4.index t (1 : Fin 2) * 2048 ≤ (i 1).val ∧ (i 1).val < win1_4.index t (1 : Fin 2) * 2048 + 2048; omega

end

end Cert.KernelIdeal.QLinear

end
-- ==== Proof.Layer.lean ====
/-
  The fake-quantised linear layer as ONE function of its three arrays.

  For activations `x : [4, 2048, 2048]`, weight `w : [2048, 2048]` and bias `b : [2048]`, entry `(β, s, o)` of the result
  is the dot product over `k` of row `(β, s)` of `x` quantised to 8 bits by its own scale with row `o` of `w` quantised
  to 4 bits by its own scale, times the two scales, plus `b(o)`.
-/
import proofs.«150266_j19370302505132_2_alg».proof.Proof.Spec
import Idealize.ShloMosaic.Lib.ValueIdx

noncomputable section

namespace Cert.QuantSpec

open Idealize.ShloMosaic Idealize.ShloMosaic.ValueIdx

/-- The layer, entry by entry, with the scales taken out of the dot product. -/
def G (x : (⟨3, ![4, 2048, 2048]⟩ : Shape).Idx → EReal) (w : (⟨2, ![2048, 2048]⟩ : Shape).Idx → EReal)
    (b : (⟨1, ![2048]⟩ : Shape).Idx → EReal) : (⟨3, ![4, 2048, 2048]⟩ : Shape).Idx → EReal := fun i =>
  ((∑ k : Fin 2048,
        quant (Ideal.ofBits .f32 0xC3000000#32) (Ideal.ofBits .f32 0x42FE0000#32)
          (rowScale (Ideal.ofBits .f32 0x42FE0000#32) (Ideal.ofBits .f32 0x322BCC77#32) (fun l : Fin 2048 => x (ix3 (i 0) (i 1) l)))
          (x (ix3 (i 0) (i 1) k))
        * quant (Ideal.ofBits .f32 0xC1000000#32) (Ideal.ofBits .f32 0x40E00000#32)
          (rowScale (Ideal.ofBits .f32 0x40E00000#32) (Ideal.ofBits .f32 0x322BCC77#32) (fun l : Fin 2048 => w (ix2 (i 2) l)))
          (w (ix2 (i 2) k)))
      * rowScale (Ideal.ofBits .f32 0x42FE0000#32) (Ideal.ofBits .f32 0x322BCC77#32) (fun l : Fin 2048 => x (ix3 (i 0) (i 1) l)))
    * rowScale (Ideal.ofBits .f32 0x40E00000#32) (Ideal.ofBits .f32 0x322BCC77#32) (fun l : Fin 2048 => w (ix2 (i 2) l))
    + b (ix1 (i 2))

end Cert.QuantSpec

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.KernelValue.lean ====
/-
  The idealized kernel's result is the layer.

  Reading the fold of boundary contents backwards from the result buffer: the result is the `[8192, 2048]` array the
  second launch leaves, reshaped to `[4, 2048, 2048]`; that array is the launch's function `Out` of the activations
  reshaped to `[8192, 2048]`, of the transposed quantised weight and the scale column the first launch leaves (the
  column reshaped to a row), and of the bias reshaped to a row.  Entry by entry the reshapes only rename indices —
  row `2048·β + s` of the flat activations is row `(β, s)` — and what is left is the layer's entry.
-/
import proofs.«150266_j19370302505132_2_alg».proof.Proof.Gen.KernelIdeal.Frame
import proofs.«150266_j19370302505132_2_alg».proof.Proof.WQuantArray
import proofs.«150266_j19370302505132_2_alg».proof.Proof.QLinearArray
import proofs.«150266_j19370302505132_2_alg».proof.Proof.Layer
import proofs.«150266_j19370302505132_2_alg».proof.Proof.LibRowBroadcast
import Idealize.ShloMosaic.Lib.StableHlo.Run

set_option maxRecDepth 16384

noncomputable section

namespace Cert.KernelIdeal.KValue

open Cert.KernelIdeal Cert.KernelIdeal.Gen Cert.QuantSpec
open Idealize.ShloMosaic Idealize.ShloMosaic.TcCoe Idealize.ShloMosaic.ValueIdx Idealize.SL.Sem Idealize.ShloMosaic.StableHlo

/-! ## The reshapes only rename indices -/

/-- The second launch's function of the reshaped arrays, reshaped back, is the layer. -/
theorem assembled (x : S4x2048x2048.Idx → EReal) (w : S2048x2048.Idx → EReal) (b : S2048.Idx → EReal) :
    shapeCast S4x2048x2048
      (QLinear.Out (shapeCast S8192x2048 x shapeCasts_S4x2048x2048_S8192x2048) (WQuant.Qwt w)
        (shapeCast S1x2048 (WQuant.Scw w) shapeCasts_S2048x1_S1x2048) (shapeCast S1x2048 b shapeCasts_S2048_S1x2048))
      shapeCasts_S8192x2048_S4x2048x2048
    = G x w b := by
  funext i
  obtain ⟨β, s, o, rfl⟩ : ∃ (β : Fin 4) (s : Fin 2048) (o : Fin 2048), i = ix3 β s o := ⟨i 0, i 1, i 2, eq_ix3 i⟩
  have hm : β.val * 2048 + s.val < 8192 := by have := β.isLt; have := s.isLt; omega
  have hX : ∀ l : Fin 2048, shapeCast S8192x2048 x shapeCasts_S4x2048x2048_S8192x2048 (ix2 (⟨β.val * 2048 + s.val, hm⟩ : Fin 8192) l)
      = x (ix3 β s l) := fun l =>
    shapeCast_apply x shapeCasts_S4x2048x2048_S8192x2048 _ (ix3 β s l) (by
      rw [Shape.rowMajor_val_two, Shape.rowMajor_val_three]
      show (β.val * 2048 + s.val) * 2048 + l.val = (β.val * 2048 + s.val) * 2048 + l.val
      rfl)
  have hS : shapeCast S1x2048 (WQuant.Scw w) shapeCasts_S2048x1_S1x2048 (ix2 (0 : Fin 1) o) = WQuant.Scw w (ix2 o (0 : Fin 1)) :=
    shapeCast_apply (WQuant.Scw w) shapeCasts_S2048x1_S1x2048 _ (ix2 o (0 : Fin 1)) (by
      rw [Shape.rowMajor_val_two, Shape.rowMajor_val_two]
      show o.val * 1 + 0 = 0 * 2048 + o.val
      omega)
  have hB : shapeCast S1x2048 b shapeCasts_S2048_S1x2048 (ix2 (0 : Fin 1) o) = b (ix1 o) :=
    RowBroadcast.shapeCast_flat_apply b shapeCasts_S2048_S1x2048 (0 : Fin 1) o
  refine (shapeCast_apply _ shapeCasts_S8192x2048_S4x2048x2048 (ix3 β s o) (ix2 (⟨β.val * 2048 + s.val, hm⟩ : Fin 8192) o) (by
      rw [Shape.rowMajor_val_two, Shape.rowMajor_val_three]
      show (β.val * 2048 + s.val) * 2048 + o.val = (β.val * 2048 + s.val) * 2048 + o.val
      rfl)).trans ?_
  unfold QLinear.Out
  show ((∑ k : Fin 2048,
        quant (Ideal.ofBits .f32 0xC3000000#32) (Ideal.ofBits .f32 0x42FE0000#32)
          (rowScale (Ideal.ofBits .f32 0x42FE0000#32) (Ideal.ofBits .f32 0x322BCC77#32)
            (fun l : Fin 2048 => shapeCast S8192x2048 x shapeCasts_S4x2048x2048_S8192x2048 (ix2 (⟨β.val * 2048 + s.val, hm⟩ : Fin 8192) l)))
          (shapeCast S8192x2048 x shapeCasts_S4x2048x2048_S8192x2048 (ix2 (⟨β.val * 2048 + s.val, hm⟩ : Fin 8192) k))
          * WQuant.Qwt w (ix2 k o))
      * rowScale (Ideal.ofBits .f32 0x42FE0000#32) (Ideal.ofBits .f32 0x322BCC77#32)
          (fun l : Fin 2048 => shapeCast S8192x2048 x shapeCasts_S4x2048x2048_S8192x2048 (ix2 (⟨β.val * 2048 + s.val, hm⟩ : Fin 8192) l)))
    * shapeCast S1x2048 (WQuant.Scw w) shapeCasts_S2048x1_S1x2048 (ix2 (0 : Fin 1) o)
    + shapeCast S1x2048 b shapeCasts_S2048_S1x2048 (ix2 (0 : Fin 1) o) = _
  simp only [hX, hS, hB]
  rfl

/-! ## The boundary contents, buffer by buffer -/

section
variable (m : (ℓ : Loc nD τ sig) → Buf (Elt Ideal) ℓ) (ρ : Dev nD → PrngReg)

/-- Before the first launch: the activations flattened. -/
theorem W1_x (c : Dev nD) : (W1 m ρ c (Proc.devRef .tc main_v0) : S8192x2048.Idx → EReal)
    = shapeCast S8192x2048 (m ((c.tc : Thread nD τ).loc main_arg0)) shapeCasts_S4x2048x2048_S8192x2048 := by
  show StableHlo.after hostOps0 (W0 m ρ c) (Proc.devRef .tc main_v0) = _
  after_results; rfl

/-- Before the first launch: the bias as a row. -/
theorem W1_b (c : Dev nD) : (W1 m ρ c (Proc.devRef .tc main_v1) : S1x2048.Idx → EReal)
    = shapeCast S1x2048 (m ((c.tc : Thread nD τ).loc main_arg2)) shapeCasts_S2048_S1x2048 := by
  show StableHlo.after hostOps0 (W0 m ρ c) (Proc.devRef .tc main_v1) = _
  after_results; rfl

/-- Before the first launch: the weight as launched. -/
theorem W1_w (c : Dev nD) : (W1 m ρ c (Proc.devRef .tc main_arg1) : S2048x2048.Idx → EReal)
    = m ((c.tc : Thread nD τ).loc main_arg1) := by
  show StableHlo.after hostOps0 (W0 m ρ c) (Proc.devRef .tc main_arg1) = _
  after_results

/-- After the first launch: the transposed quantised weight. -/
theorem W2_q (c : Dev nD) : (W2 m ρ c (Proc.devRef .tc main_v2_0) : S2048x2048.Idx → EReal)
    = WQuant.Qwt (m ((c.tc : Thread nD τ).loc main_arg1)) := by
  refine (W2_arr m ρ c 1).trans ?_
  rw [WQuant.final_qwt (V1 m ρ) c]
  exact congrArg WQuant.Qwt (W1_w m ρ c)

/-- After the first launch: the scale column. -/
theorem W2_s (c : Dev nD) : (W2 m ρ c (Proc.devRef .tc main_v2_1) : S2048x1.Idx → EReal)
    = WQuant.Scw (m ((c.tc : Thread nD τ).loc main_arg1)) := by
  refine (W2_arr m ρ c 2).trans ?_
  rw [WQuant.final_scw (V1 m ρ) c]
  exact congrArg WQuant.Scw (W1_w m ρ c)

/-- Before the second launch: the flat activations, untouched by the first launch and the reshape after it. -/
theorem W3_x (c : Dev nD) : (W3 m ρ c (Proc.devRef .tc main_v0) : S8192x2048.Idx → EReal)
    = shapeCast S8192x2048 (m ((c.tc : Thread nD τ).loc main_arg0)) shapeCasts_S4x2048x2048_S8192x2048 := by
  have h : W3 m ρ c (Proc.devRef .tc main_v0) = W2 m ρ c (Proc.devRef .tc main_v0) := by
    show StableHlo.after hostOps1 (W2 m ρ c) (Proc.devRef .tc main_v0) = _
    after_results
  rw [h, W2_of_ne m ρ c main_v0 (by decide)]
  exact W1_x m ρ c

/-- Before the second launch: the bias row. -/
theorem W3_b (c : Dev nD) : (W3 m ρ c (Proc.devRef .tc main_v1) : S1x2048.Idx → EReal)
    = shapeCast S1x2048 (m ((c.tc : Thread nD τ).loc main_arg2)) shapeCasts_S2048_S1x2048 := by
  have h : W3 m ρ c (Proc.devRef .tc main_v1) = W2 m ρ c (Proc.devRef .tc main_v1) := by
    show StableHlo.after hostOps1 (W2 m ρ c) (Proc.devRef .tc main_v1) = _
    after_results
  rw [h, W2_of_ne m ρ c main_v1 (by decide)]
  exact W1_b m ρ c

/-- Before the second launch: the transposed quantised weight. -/
theorem W3_q (c : Dev nD) : (W3 m ρ c (Proc.devRef .tc main_v2_0) : S2048x2048.Idx → EReal)
    = WQuant.Qwt (m ((c.tc : Thread nD τ).loc main_arg1)) := by
  have h : W3 m ρ c (Proc.devRef .tc main_v2_0) = W2 m ρ c (Proc.devRef .tc main_v2_0) := by
    show StableHlo.after hostOps1 (W2 m ρ c) (Proc.devRef .tc main_v2_0) = _
    after_results
  rw [h]
  exact W2_q m ρ c

/-- Before the second launch: the scale column as a row. -/
theorem W3_s (c : Dev nD) : (W3 m ρ c (Proc.devRef .tc main_v3) : S1x2048.Idx → EReal)
    = shapeCast S1x2048 (WQuant.Scw (m ((c.tc : Thread nD τ).loc main_arg1))) shapeCasts_S2048x1_S1x2048 := by
  have h : (W3 m ρ c (Proc.devRef .tc main_v3) : S1x2048.Idx → EReal)
      = shapeCast S1x2048 (W2 m ρ c (Proc.devRef .tc main_v2_1)) shapeCasts_S2048x1_S1x2048 := by
    show StableHlo.after hostOps1 (W2 m ρ c) (Proc.devRef .tc main_v3) = _
    after_results; rfl
  rw [h, W2_s]

/-- The result buffer after the run is the layer of the launch arrays. -/
theorem result (c : Dev nD) : (W5 m ρ c (Proc.devRef .tc main_v5) : S4x2048x2048.Idx → EReal)
    = G (m ((c.tc : Thread nD τ).loc main_arg0)) (m ((c.tc : Thread nD τ).loc main_arg1)) (m ((c.tc : Thread nD τ).loc main_arg2)) := by
  have h5 : (W5 m ρ c (Proc.devRef .tc main_v5) : S4x2048x2048.Idx → EReal)
      = shapeCast S4x2048x2048 (W4 m ρ c (Proc.devRef .tc main_v4)) shapeCasts_S8192x2048_S4x2048x2048 := by
    show StableHlo.after hostOps2 (W4 m ρ c) (Proc.devRef .tc main_v5) = _
    after_results; rfl
  have h4 : (W4 m ρ c (Proc.devRef .tc main_v4) : S8192x2048.Idx → EReal)
      = QLinear.Out (V3 m ρ c main_v0) (V3 m ρ c main_v2_0) (V3 m ρ c main_v3) (V3 m ρ c main_v1) :=
    (W4_arr m ρ c 4).trans (QLinear.final_out (V3 m ρ) c)
  rw [h5, h4]
  show shapeCast S4x2048x2048 (QLinear.Out (W3 m ρ c (Proc.devRef .tc main_v0)) (W3 m ρ c (Proc.devRef .tc main_v2_0))
    (W3 m ρ c (Proc.devRef .tc main_v3)) (W3 m ρ c (Proc.devRef .tc main_v1))) shapeCasts_S8192x2048_S4x2048x2048 = _
  rw [W3_x, W3_q, W3_s, W3_b]
  exact assembled _ _ _

end

end Cert.KernelIdeal.KValue

end
-- ==== Proof.LibHostLastMax.lean ====
/-
  The host's maximum over the LAST axis, read at an index, on the extended reals: for an `[a, b]` array at row `r`, and
  for an `[a, b, c]` array at `(p, q)`, it is the fold of `max` from the initial value over the last coordinate.
-/
import Idealize.ShloMosaic.Lib.ValueIdx
import Idealize.ShloMosaic.PureOps.Ideal.Laws

noncomputable section

namespace Idealize.ShloMosaic.HostLastMax

open Idealize.ShloMosaic Idealize.ShloMosaic.ValueIdx

variable {a b c : ℕ}

/-- The host's maximum of an `[a, b]` array over its last axis from an initial value, at row `r`. -/
theorem apply2 {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  refine congrArg (fun f => (Finset.univ : Finset (Fin b)).fold max (init (Shape.Idx.first hu)) f) (funext fun k => ?_)
  exact congrArg x (funext fun ax => Fin.ext (by
    match ax with
    | ⟨0, _⟩ => rfl
    | ⟨1, _⟩ => rfl))

/-- The host's maximum of an `[a, b, c]` array over its last axis from an initial value, at `(p, q)`. -/
theorem apply3 {u : Shape} (x : FVec Ideal ⟨3, ![a, b, c]⟩ .f32) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  refine congrArg (fun f => (Finset.univ : Finset (Fin c)).fold max (init (Shape.Idx.first hu)) f) (funext fun k => ?_)
  exact congrArg x (funext fun ax => Fin.ext (by
    match ax with
    | ⟨0, _⟩ => rfl
    | ⟨1, _⟩ => rfl
    | ⟨2, _⟩ => rfl))

end Idealize.ShloMosaic.HostLastMax

end
-- ==== Proof.RefValue.lean ====
/-
  The reference computes the layer.

  Operation by operation the reference forms, for each row, the scale `max(max |·| / Q, ε)`, divides, rounds with the
  straight-through spelling `d + (round d − d)`, clips, and multiplies back by the scale; it then contracts the
  de-quantised activations with the de-quantised weight and adds the bias.  For real arrays each entry of that is the
  layer's entry with the two scales taken out of the dot product.
-/
import proofs.«150266_j19370302505132_2_alg».proof.Proof.Gen.ReferenceIdeal.Read
import proofs.«150266_j19370302505132_2_alg».proof.Proof.Layer
import proofs.«150266_j19370302505132_2_alg».proof.Proof.LibHostLastMax
import proofs.«150266_j19370302505132_2_alg».proof.Proof.LibRowOps

noncomputable section

namespace Cert.ReferenceIdeal.RefValue

open Cert.ReferenceIdeal Cert.ReferenceIdeal.Gen Cert.ReferenceIdeal.Read Cert.QuantSpec
open Idealize.ShloMosaic Idealize.ShloMosaic.ValueIdx

/-! ## The weight side -/

/-- The largest magnitude of row `o` of the weight. -/
theorem w_absmax (w : S2048x2048.Idx → EReal) (o : Fin 2048) :
    val_main_v1 (F := Ideal) w (ix1 o) = rowAbsMax (fun l : Fin 2048 => w (ix2 o l)) := by
  unfold val_main_v1
  refine (HostLastMax.apply2 (val_main_v0 (F := Ideal) w) (val_main_cst (F := Ideal)) reducesTo_S2048x2048_S2048_d1
    (by decide) h_S_ o).trans ?_
  rw [val_main_cst_apply]
  show (Finset.univ : Finset (Fin 2048)).fold max (Ideal.ofBits .f32 0xFF800000#32) _ = _
  rw [RowOps.ofBits_neg_inf]
  rfl

/-- The weight's scale column at `(o, 0)` is row `o`'s scale. -/
theorem w_scale (w : S2048x2048.Idx → EReal) (o : Fin 2048) (u : Fin 1) :
    val_main_v6 (F := Ideal) w (ix2 o u)
      = rowScale (Ideal.ofBits .f32 0x40E00000#32) (Ideal.ofBits .f32 0x322BCC77#32) (fun l : Fin 2048 => w (ix2 o l)) := by
  have e : idx_main_v2 (ix2 o u) = ix1 o := funext fun a => Fin.ext (by match a with | ⟨0, _⟩ => rfl)
  rw [val_main_v6_apply, val_main_v4_apply, val_main_v2_apply, e, w_absmax, val_main_v3_apply, val_main_cst_0_apply,
    val_main_v5_apply, val_main_cst_1_apply]
  rfl

/-- The de-quantised weight at `(o, k)`. -/
theorem wq_entry (w : S2048x2048.Idx → EReal) (o k : Fin 2048) :
    val_main_v14 (F := Ideal) w (ix2 o k)
      = quantSte (Ideal.ofBits .f32 0xC1000000#32) (Ideal.ofBits .f32 0x40E00000#32)
          (rowScale (Ideal.ofBits .f32 0x40E00000#32) (Ideal.ofBits .f32 0x322BCC77#32) (fun l : Fin 2048 => w (ix2 o l)))
          (w (ix2 o k))
        * rowScale (Ideal.ofBits .f32 0x40E00000#32) (Ideal.ofBits .f32 0x322BCC77#32) (fun l : Fin 2048 => w (ix2 o l)) := by
  have e7 : idx_main_v7 (ix2 o k) = ix2 o (0 : Fin 1) := funext fun a => Fin.ext (by
    match a with
    | ⟨0, _⟩ => rfl
    | ⟨1, _⟩ => rfl)
  have e13 : idx_main_v13 (ix2 o k) = ix2 o (0 : Fin 1) := funext fun a => Fin.ext (by
    match a with
    | ⟨0, _⟩ => rfl
    | ⟨1, _⟩ => rfl)
  simp only [val_main_v14_apply, val_main_v12_apply, val_main_call1_v4_apply, val_main_call1_v3_apply, val_main_cst_3_apply,
    val_main_call1_v2_apply, val_main_call1_v1_apply, val_main_call1_v0_apply, val_main_cst_2_apply, val_main_v11_apply,
    val_main_v10_apply, val_main_v9_apply, val_main_v8_apply, val_main_v7_apply, val_main_v13_apply, e7, e13, w_scale]
  rfl

/-! ## The activation side -/

/-- The largest magnitude of row `(β, s)` of the activations. -/
theorem x_absmax (x : S4x2048x2048.Idx → EReal) (β : Fin 4) (s : Fin 2048) :
    val_main_v16 (F := Ideal) x (ix2 β s) = rowAbsMax (fun l : Fin 2048 => x (ix3 β s l)) := by
  unfold val_main_v16
  refine (HostLastMax.apply3 (val_main_v15 (F := Ideal) x) (val_main_cst_4 (F := Ideal)) reducesTo_S4x2048x2048_S4x2048_d2
    (by decide) h_S_ β s).trans ?_
  rw [val_main_cst_4_apply]
  show (Finset.univ : Finset (Fin 2048)).fold max (Ideal.ofBits .f32 0xFF800000#32) _ = _
  rw [RowOps.ofBits_neg_inf]
  rfl

/-- The activations' scale at `(β, s, 0)` is row `(β, s)`'s scale. -/
theorem x_scale (x : S4x2048x2048.Idx → EReal) (β : Fin 4) (s : Fin 2048) (u : Fin 1) :
    val_main_v21 (F := Ideal) x (ix3 β s u)
      = rowScale (Ideal.ofBits .f32 0x42FE0000#32) (Ideal.ofBits .f32 0x322BCC77#32) (fun l : Fin 2048 => x (ix3 β s l)) := by
  have e : idx_main_v17 (ix3 β s u) = ix2 β s := funext fun a => Fin.ext (by
    match a with
    | ⟨0, _⟩ => rfl
    | ⟨1, _⟩ => rfl)
  rw [val_main_v21_apply, val_main_v19_apply, val_main_v17_apply, e, x_absmax, val_main_v18_apply, val_main_cst_5_apply,
    val_main_v20_apply, val_main_cst_6_apply]
  rfl

/-- The de-quantised activations at `(β, s, k)`. -/
theorem xq_entry (x : S4x2048x2048.Idx → EReal) (β : Fin 4) (s k : Fin 2048) :
    val_main_v29 (F := Ideal) x (ix3 β s k)
      = quantSte (Ideal.ofBits .f32 0xC3000000#32) (Ideal.ofBits .f32 0x42FE0000#32)
          (rowScale (Ideal.ofBits .f32 0x42FE0000#32) (Ideal.ofBits .f32 0x322BCC77#32) (fun l : Fin 2048 => x (ix3 β s l)))
          (x (ix3 β s k))
        * rowScale (Ideal.ofBits .f32 0x42FE0000#32) (Ideal.ofBits .f32 0x322BCC77#32) (fun l : Fin 2048 => x (ix3 β s l)) := by
  have e22 : idx_main_v22 (ix3 β s k) = ix3 β s (0 : Fin 1) := funext fun a => Fin.ext (by
    match a with
    | ⟨0, _⟩ => rfl
    | ⟨1, _⟩ => rfl
    | ⟨2, _⟩ => rfl)
  have e28 : idx_main_v28 (ix3 β s k) = ix3 β s (0 : Fin 1) := funext fun a => Fin.ext (by
    match a with
    | ⟨0, _⟩ => rfl
    | ⟨1, _⟩ => rfl
    | ⟨2, _⟩ => rfl)
  simp only [val_main_v29_apply, val_main_v27_apply, val_main_call3_v4_apply, val_main_call3_v3_apply, val_main_cst_8_apply,
    val_main_call3_v2_apply, val_main_call3_v1_apply, val_main_call3_v0_apply, val_main_cst_7_apply, val_main_v26_apply,
    val_main_v25_apply, val_main_v24_apply, val_main_v23_apply, val_main_v22_apply, val_main_v28_apply, e22, e28, x_scale]
  rfl

/-! ## The result -/

/-- For real activations and a real weight the reference's result is the layer. -/
theorem result_real (xr : S4x2048x2048.Idx → ℝ) (wr : S2048x2048.Idx → ℝ) (b : S2048.Idx → EReal) :
    val_main_v33 (F := Ideal) (fun i => (xr i : EReal)) (fun i => (wr i : EReal)) b
      = G (fun i => (xr i : EReal)) (fun i => (wr i : EReal)) b := by
  funext i
  obtain ⟨β, s, o, rfl⟩ : ∃ (β : Fin 4) (s : Fin 2048) (o : Fin 2048), i = ix3 β s o := ⟨i 0, i 1, i 2, eq_ix3 i⟩
  have el : ∀ k : Fin 2048, lidx_main_v30 (ix3 β s o) k = ix3 β s k := fun k => funext fun a => Fin.ext (by
    match a with
    | ⟨0, _⟩ => rfl
    | ⟨1, _⟩ => rfl
    | ⟨2, _⟩ => rfl)
  have er : ∀ k : Fin 2048, ridx_main_v30 (ix3 β s o) k = ix2 o k := fun k => funext fun a => Fin.ext (by
    match a with
    | ⟨0, _⟩ => rfl
    | ⟨1, _⟩ => rfl)
  have eb : idx_main_v31 (idx_main_v32 (ix3 β s o)) = ix1 o := funext fun a => Fin.ext (by
    match a with
    | ⟨0, _⟩ => rfl)
  rw [val_main_v33_apply, val_main_v30_apply, val_main_v32_apply, val_main_v31_apply, eb]
  simp only [el, er, xq_entry, wq_entry]
  obtain ⟨e, he, hee⟩ := ofBits_floor_pos
  unfold G
  simp only [ofBits_127, ofBits_seven, hee]
  exact entry_eq (n := 2048) (by decide) _ _ _ _ (by norm_num : (127 : ℝ) ≠ 0) (by norm_num : (7 : ℝ) ≠ 0) he
    (fun k => xr (ix3 β s k)) (fun k => wr (ix2 o k)) (b (ix1 o))

/-- For finite activations and a finite weight the reference's result is the layer. -/
theorem result (x : S4x2048x2048.Idx → EReal) (w : S2048x2048.Idx → EReal) (b : S2048.Idx → EReal)
    (hx : ∀ i, ∃ r : ℝ, x i = (r : EReal)) (hw : ∀ i, ∃ r : ℝ, w i = (r : EReal)) :
    val_main_v33 (F := Ideal) x w b = G x w b := by
  obtain ⟨xr, rfl⟩ : ∃ xr : S4x2048x2048.Idx → ℝ, x = fun i => (xr i : EReal) :=
    ⟨fun i => (hx i).choose, funext fun i => (hx i).choose_spec⟩
  obtain ⟨wr, rfl⟩ : ∃ wr : S2048x2048.Idx → ℝ, w = fun i => (wr i : EReal) :=
    ⟨fun i => (hw i).choose, funext fun i => (hw i).choose_spec⟩
  exact result_real xr wr b

end Cert.ReferenceIdeal.RefValue

end
-- ==== Proof.LibHostKeepdims.lean ====
/-
  Reading the host's "keep the reduced axis as a unit axis" operations at an index.

  A host sum over the last axis of an `[a, b]` array kept as an `[a, 1]` column is met as: the sum to `[a]` from a
  zero scalar, a `broadcast_in_dim` of `[a]` to the column `[a, 1]`, and later a `broadcast_in_dim` of the column
  over `b` lanes; a scalar constant reaches a shape by `broadcast_in_dim` with no dimensions.  Each lemma reads one of
  them at an index built from coordinates.
-/
import Idealize.ShloMosaic.Lib.Pipeline.Value
import Idealize.ShloMosaic.Lib.ValueIdx
import Idealize.ShloMosaic.PureOps.Ideal.Laws

noncomputable section

namespace Idealize.ShloMosaic.HostKeepdims

open Idealize.ShloMosaic Idealize.ShloMosaic.ValueIdx

variable {α : Type}

/-- The host's sum over the last axis of an `[a, b]` array, started from the zero scalar, at row `r`, is the sum of
    the row's entries (the reduction's two shape facts are the caller's, decided at its literal shapes). -/
theorem hostRowSum_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd v (constant (F := Ideal) ⟨0, ![]⟩ .f32 0x00000000#32) h' hu (ix1 r) = ∑ k : Fin b, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (funext fun ax => Fin.ext (by
    match ax with
    | ⟨0, _⟩ => rfl
    | ⟨1, _⟩ => rfl))

/-- An `[a]` array laid as the column `[a, 1]` by `broadcast_in_dim` along axis 0 reads, at `(r, u)`, the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) :=
  broadcastInDim_apply _ h x (ix2 r u) (ix1 r) fun ax => by
    match ax with
    | ⟨0, _⟩ =>
      show r.val = if a = 1 then 0 else r.val
      split
      · have := r.isLt; omega
      · rfl

/-- A scalar sent to any shape by `broadcast_in_dim` with no dimensions reads, everywhere, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- A column `[a, 1]` sent over `b` lanes by `broadcast_in_dim` along axes 0 and 1 reads, at `(r, c)`, the column at row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 r (0 : Fin 1)) :=
  broadcastInDim_apply _ h x (ix2 r c) (ix2 r (0 : Fin 1)) fun ax => by
    match ax with
    | ⟨0, _⟩ =>
      show r.val = if a = 1 then 0 else r.val
      split
      · have := r.isLt; omega
      · rfl
    | ⟨1, _⟩ =>
      show (0 : ℕ) = if (1 : ℕ) = 1 then 0 else c.val
      rw [if_pos rfl]

end Idealize.ShloMosaic.HostKeepdims

end
-- ==== Proof.Finite.lean ====
/-
  Finite inputs are real.

  The precondition says, of each float input, that every entry's magnitude is below `+∞`, all of it folded into one
  bit by `and`.  On the extended reals `max(v, −v) < ⊤` fails exactly at `v = ±∞`, so that bit being 1 makes every
  entry of the activations and of the weight a real number.
-/
import proofs.«150266_j19370302505132_2_alg».proof.Pre_finite_inputs
import proofs.«150266_j19370302505132_2_alg».proof.Proof.LibHostKeepdims
import Idealize.ShloMosaic.Lib.ReduceAll
import Idealize.ShloMosaic.Lib.ValueIdx
import Idealize.ShloMosaic.Lib.Affine
import Idealize.ShloMosaic.PureOps.Ideal

noncomputable section

namespace Cert.Pre_finite_inputs.Finite

open Cert.Pre_finite_inputs Idealize.ShloMosaic Idealize.ShloMosaic.ValueIdx

instance : Subsingleton S_.Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose magnitude is below `+∞` is real. -/
theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => exact absurd h (by simp [Ideal.cmp])
  | top => exact absurd h (by simp [Ideal.cmp])
  | coe r => exact ⟨r, rfl⟩

/-- One entry of an array whose comparison against the broadcast `+∞` is 1 there. -/
theorem entry_real {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  refine real_of_abs_lt_inf (x i) ?_
  have e : broadcastInDim s ![] hb (constant (F := Ideal) S_ .f32 0x7F800000#32) i = Ideal.ofBits .f32 0x7F800000#32 :=
    HostKeepdims.bcast_scalar_apply _ hb i
  rw [← e]
  exact h

variable [Facts]
open Facts

/-- Under the precondition every entry of the activations and of the weight is a real number. -/
theorem reals_of_pre (x : FVec Ideal S4x2048x2048 .f32) (w : FVec Ideal S2048x2048 .f32) (b : FVec Ideal S2048 .f32)
    (h : fn (F := Ideal) x w b = fun _ => 1#1) :
    (∀ i, ∃ r : ℝ, x i = (r : EReal)) ∧ (∀ i, ∃ r : ℝ, w i = (r : EReal)) := by
  have h0 := congrFun h ValueIdx.ix0
  dsimp only [fn] at h0
  change IntOp.andi (IntOp.andi _ _) _ = 1#1 at h0
  obtain ⟨h2, -⟩ := IntOp.andi_eq_one.mp h0
  obtain ⟨hA, hB⟩ := IntOp.andi_eq_one.mp h2
  exact ⟨fun i => entry_real x bcast_S_S4x2048x2048 i (Host.reduce_andi_all _ _ _ _ ix0 hA i),
    fun i => entry_real w bcast_S_S2048x2048 i (Host.reduce_andi_all _ _ _ _ ix0 hB i)⟩

end Cert.Pre_finite_inputs.Finite

end
-- ==== Proof.lean ====
/-
  A 4-bit-weight, 8-bit-activation fake-quantised linear layer: the kernel against its jnp reference, on the
  extended reals.

  Both programs scale each row by `σ = max(max |·| / Q, ε)` (`Q = 7` for a weight row, `127` for an activation row),
  round `v / σ` to nearest-even and clip it.  The reference multiplies the clipped integers back by `σ` and contracts:
  `Σₖ (q(xₖ)·σx)·(q(wₖ)·σw) + b`, its rounding spelt `d + (round d − d)`.  The kernel quantises the weight once, in a
  first grid of launches that also stores the row scales, and in a second grid contracts the clipped integers and
  scales afterwards: `((Σₖ q(xₖ)·q(wₖ))·σx)·σw + b`.  For finite inputs every `σ` is a positive real and every `v / σ`
  is real, so the straight-through spelling is the rounding and the two scales move out of the sum: the two results
  are one function `G` of the three arrays (Proof/Layer.lean).

  The kernel's side: its run names the result buffer as the last stage of the fold of boundary contents
  (Proof/KernelRun.lean); reading that fold back through the two launches — each launch's blocks tile its arrays
  (Proof/WQuantArray.lean, Proof/QLinearArray.lean) — and the reshapes gives `G` (Proof/KernelValue.lean).  The
  reference's side: its run, read operation by operation, is `G` for real arrays (Proof/RefValue.lean), and the
  precondition makes the arrays real (Proof/Finite.lean).  The idealization rewrote nothing, so it is preserved
  trivially; the three frames are the generated runs.
-/
import proofs.«150266_j19370302505132_2_alg».proof.Defs
import proofs.«150266_j19370302505132_2_alg».proof.Proof.Gen.Kernel
import proofs.«150266_j19370302505132_2_alg».proof.Proof.Gen.Kernel.Skeleton
import proofs.«150266_j19370302505132_2_alg».proof.Proof.Gen.Kernel.Launch
import proofs.«150266_j19370302505132_2_alg».proof.Proof.Gen.Kernel.Points
import proofs.«150266_j19370302505132_2_alg».proof.Proof.Gen.Kernel.Frame
import proofs.«150266_j19370302505132_2_alg».proof.Proof.Gen.KernelIdeal
import proofs.«150266_j19370302505132_2_alg».proof.Proof.Gen.KernelIdeal.Skeleton
import proofs.«150266_j19370302505132_2_alg».proof.Proof.Gen.KernelIdeal.Launch
import proofs.«150266_j19370302505132_2_alg».proof.Proof.Gen.KernelIdeal.Points
import proofs.«150266_j19370302505132_2_alg».proof.Proof.Gen.KernelIdeal.Frame
import proofs.«150266_j19370302505132_2_alg».proof.Proof.Gen.ReferenceIdeal
import proofs.«150266_j19370302505132_2_alg».proof.Proof.Gen.ReferenceIdeal.Run
import proofs.«150266_j19370302505132_2_alg».proof.Proof.Gen.ReferenceIdeal.Read
import proofs.«150266_j19370302505132_2_alg».proof.Proof.Gen.Pre_finite_inputs
import proofs.«150266_j19370302505132_2_alg».proof.Proof.KernelRun
import proofs.«150266_j19370302505132_2_alg».proof.Proof.KernelValue
import proofs.«150266_j19370302505132_2_alg».proof.Proof.RefValue
import proofs.«150266_j19370302505132_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the three arrays, finite, both programs end with the layer `G` of those arrays. -/
theorem algebraic : Cert.algebraic_KernelIdeal_ReferenceIdeal := by
  intro m ρ m' ρ' hpre hagree
  refine ⟨fun c => Cert.QuantSpec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KValue.result m ρ c), (h c).2⟩)
      (Cert.KernelIdeal.KRun.run (F := Ideal) m ρ)
  · refine (θ_run Cert.ReferenceIdeal.defs _ _).mono (fun r h c => ⟨?_, (h c).2⟩)
      (Cert.ReferenceIdeal.Value.run (F := Ideal) m' ρ')
    obtain ⟨hx, hw⟩ := Cert.Pre_finite_inputs.Finite.reals_of_pre _ _ _ (hpre c)
    rw [(h c).1, Cert.ReferenceIdeal.Read.val_main_v33_eq, (hagree c).1, (hagree c).2.1, (hagree c).2.2]
    exact Cert.ReferenceIdeal.RefValue.result _ _ _ hx hw

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
